-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x1536 : Shape := ⟨3, ![1, 50000, 1536]⟩
abbrev S1x50000x2 : Shape := ⟨3, ![1, 50000, 2]⟩
abbrev S2x1536 : Shape := ⟨2, ![2, 1536]⟩
abbrev S2 : Shape := ⟨1, ![2]⟩
abbrev S1x1536 : Shape := ⟨2, ![1, 1536]⟩
abbrev S1 : Shape := ⟨1, ![1]⟩
abbrev S_ : Shape := ⟨0, ![]⟩

class Facts : Prop where
  bcast_S_S1x50000x1536 : S_.BroadcastsInDim S1x50000x1536 (![] : Fin 0 → Fin S1x50000x1536.rank)
  reducesTo_S1x50000x1536_S_d0_1_2 : S1x50000x1536.ReducesTo [0, 1, 2] S_
  h_S_ : 0 < S_.numel
  bcast_S_S1x50000x2 : S_.BroadcastsInDim S1x50000x2 (![] : Fin 0 → Fin S1x50000x2.rank)
  reducesTo_S1x50000x2_S_d0_1_2 : S1x50000x2.ReducesTo [0, 1, 2] S_
  bcast_S_S2x1536 : S_.BroadcastsInDim S2x1536 (![] : Fin 0 → Fin S2x1536.rank)
  reducesTo_S2x1536_S_d0_1 : S2x1536.ReducesTo [0, 1] S_
  bcast_S_S2 : S_.BroadcastsInDim S2 (![] : Fin 0 → Fin S2.rank)
  reducesTo_S2_S_d0 : S2.ReducesTo [0] S_
  bcast_S_S1x1536 : S_.BroadcastsInDim S1x1536 (![] : Fin 0 → Fin S1x1536.rank)
  reducesTo_S1x1536_S_d0_1 : S1x1536.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1536 .f32) (main_arg5 : FVec F S1 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S1x1536 .f32 := Host.absf main_arg4
  let main_cst_6 : FVec F S_ .f32 := constant S_ .f32 0x7F800000#32
  let main_v20 : FVec F S1x1536 .f32 := broadcastInDim S1x1536 ![] bcast_S_S1x1536 main_cst_6
  let main_v21 : IVec S1x1536 1 := cmpf .olt main_v19 main_v20
  let main_c_7 : IVec S_ 1 := constantI S_ 1 1#1
  let main_v22 : IVec S_ 1 := (fun x v => Host.reduce IntOp.andi x v reducesTo_S1x1536_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1x50000x1536 .f32) (main_arg1 : FVec F S1x50000x2 .f32) (main_arg2 : FVec F S2x1536 .f32) (main_arg3 : FVec F S2 .f32) (main_arg4 : FVec F S1x1536 .f32) (main_arg5 : FVec F S1 .f32) : IVec S_ 1 :=
  let main_v0 : FVec F S1x50000x1536 .f32 := Host.absf main_arg0
  let main_cst : FVec F S_ .f32 := constant S_ .f32 0x7F800000#32
  let main_v1 : FVec F S1x50000x1536 .f32 := broadcastInDim S1x50000x1536 ![] bcast_S_S1x50000x1536 main_cst
  let main_v2 : IVec S1x50000x1536 1 := cmpf .olt main_v0 main_v1
  let main_c : IVec S_ 1 := constantI S_ 1 1#1
  let main_v3 : IVec S_ 1 := (fun x v => Host.reduce IntOp.andi x v reducesTo_S1x50000x1536_S_d0_1_2 h_S_) main_v2 main_c
  let main_v4 : FVec F S1x50000x2 .f32 := Host.absf main_arg1
  let main_cst_0 : FVec F S_ .f32 := constant S_ .f32 0x7F800000#32
  let main_v5 : FVec F S1x50000x2 .f32 := broadcastInDim S1x50000x2 ![] bcast_S_S1x50000x2 main_cst_0
  let main_v6 : IVec S1x50000x2 1 := cmpf .olt main_v4 main_v5
  let main_c_1 : IVec S_ 1 := constantI S_ 1 1#1
  let main_v7 : IVec S_ 1 := (fun x v => Host.reduce IntOp.andi x v reducesTo_S1x50000x2_S_d0_1_2 h_S_) main_v6 main_c_1
  let main_v8 : IVec S_ 1 := andi main_v3 main_v7
  let main_v9 : FVec F S2x1536 .f32 := Host.absf main_arg2
  let main_cst_2 : FVec F S_ .f32 := constant S_ .f32 0x7F800000#32
  let main_v10 : FVec F S2x1536 .f32 := broadcastInDim S2x1536 ![] bcast_S_S2x1536 main_cst_2
  let main_v11 : IVec S2x1536 1 := cmpf .olt main_v9 main_v10
  let main_c_3 : IVec S_ 1 := constantI S_ 1 1#1
  let main_v12 : IVec S_ 1 := (fun x v => Host.reduce IntOp.andi x v reducesTo_S2x1536_S_d0_1 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg4 main_arg5 main_v13 main_v16
-- ==== Kernel.lean ====
abbrev S1x50000x1536 : Shape := ⟨3, ![1, 50000, 1536]⟩
abbrev S1x50000x2 : Shape := ⟨3, ![1, 50000, 2]⟩
abbrev S2x1536 : Shape := ⟨2, ![2, 1536]⟩
abbrev S2 : Shape := ⟨1, ![2]⟩
abbrev S1x1536 : Shape := ⟨2, ![1, 1536]⟩
abbrev S1 : Shape := ⟨1, ![1]⟩
abbrev S1x2 : Shape := ⟨2, ![1, 2]⟩
abbrev S1x1 : Shape := ⟨2, ![1, 1]⟩
abbrev S1x2000x1536 : Shape := ⟨3, ![1, 2000, 1536]⟩
abbrev S1x2000x2 : Shape := ⟨3, ![1, 2000, 2]⟩
abbrev S2000x1536 : Shape := ⟨2, ![2000, 1536]⟩
abbrev S1536x2 : Shape := ⟨2, ![1536, 2]⟩
abbrev S2000x2 : Shape := ⟨2, ![2000, 2]⟩
abbrev S1536x1 : Shape := ⟨2, ![1536, 1]⟩
abbrev S2000x1 : Shape := ⟨2, ![2000, 1]⟩
abbrev S1x1x1 : Shape := ⟨3, ![1, 1, 1]⟩
abbrev S1x2000x1 : Shape := ⟨3, ![1, 2000, 1]⟩

abbrev nBuf : Space → Nat
  | .hbm => 10
  | .vmem => 11
  | .smem => 0
  | _ => 0

abbrev bufTy : (tb : Table) → Fin (tcTables nBuf tb) → BufTy
  | .hbm, ⟨0, _⟩ => ⟨S1x50000x1536, .f32⟩
  | .hbm, ⟨1, _⟩ => ⟨S1x50000x2, .f32⟩
  | .hbm, ⟨2, _⟩ => ⟨S2x1536, .f32⟩
  | .hbm, ⟨3, _⟩ => ⟨S2, .f32⟩
  | .hbm, ⟨4, _⟩ => ⟨S1x1536, .f32⟩
  | .hbm, ⟨5, _⟩ => ⟨S1, .f32⟩
  | .hbm, ⟨6, _⟩ => ⟨S1x2, .f32⟩
  | .hbm, ⟨7, _⟩ => ⟨S1x1, .f32⟩
  | .hbm, ⟨8, _⟩ => ⟨S1x50000x2, .f32⟩
  | .hbm, ⟨9, _⟩ => ⟨S1x1, .f32⟩
  | .local _ .vmem, ⟨0, _⟩ => ⟨S1x2000x1536, .f32⟩
  | .local _ .vmem, ⟨1, _⟩ => ⟨S1x2000x1536, .f32⟩
  | .local _ .vmem, ⟨2, _⟩ => ⟨S2x1536, .f32⟩
  | .local _ .vmem, ⟨3, _⟩ => ⟨S1x2, .f32⟩
  | .local _ .vmem, ⟨4, _⟩ => ⟨S1x1536, .f32⟩
  | .local _ .vmem, ⟨5, _⟩ => ⟨S1x1, .f32⟩
  | .local _ .vmem, ⟨6, _⟩ => ⟨S1x2000x2, .f32⟩
  | .local _ .vmem, ⟨7, _⟩ => ⟨S1x2000x2, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S1x50000x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v44 : BitVec 1 := Scalar.cmpi .eq arg0 c24_i32
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2000x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S2_S1x2 : S2.ShapeCasts S1x2
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2000x1536_S1x2000x1536_0_0_0 : ∀ a, (![0, 0, 0] : Fin 3 → Nat) a + S1x2000x1536.size a ≤ S1x2000x1536.size a
  h_S1x2000x1536 : 0 < S1x2000x1536.numel
  shapeCasts_S1x2000x1536_S2000x1536 : S1x2000x1536.ShapeCasts S2000x1536
  inb_S2x1536_S2x1536_0_0 : ∀ a, (![0, 0] : Fin 2 → Nat) a + S2x1536.size a ≤ S2x1536.size a
  h_S2x1536 : 0 < S2x1536.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x1536_S1x1536_0_0 : ∀ a, (![0, 0] : Fin 2 → Nat) a + S1x1536.size a ≤ S1x1536.size a
  h_S1x1536 : 0 < S1x1536.numel
  transposes_S2x1536_p1_0_S1536x2 : S2x1536.Transposes [1, 0] S1536x2
  broadcasts_S1x2_S2000x2 : S1x2.Broadcasts S2000x2
  transposes_S1x1536_p1_0_S1536x1 : S1x1536.Transposes [1, 0] S1536x1
  broadcasts_S1x1_S2000x1 : S1x1.Broadcasts S2000x1
  inb_S1x2000x2_S1x2000x2_0_0_0 : ∀ a, (![0, 0, 0] : Fin 3 → Nat) a + S1x2000x2.size a ≤ S1x2000x2.size a
  h_S1x2000x2 : 0 < S1x2000x2.numel
  shapeCasts_S1x2000x2_S2000x2 : S1x2000x2.ShapeCasts S2000x2
  shapeCasts_S2000x2_S1x2000x2 : S2000x2.ShapeCasts S1x2000x2
  broadcasts_S2000x1_S2000x2 : S2000x1.Broadcasts S2000x2
  reduces_S1x2000x2_S1 : S1x2000x2.Reduces [1, 2] S1
  shapeCasts_S1_S1x1x1 : S1.ShapeCasts S1x1x1
  inpos_S1x1x1_p0_0_0 : ∀ a, (![0, 0, 0] : Fin 3 → Nat) a < S1x1x1.size a
  shapeCasts_S2000x1_S1x2000x1 : S2000x1.ShapeCasts S1x2000x1
  reduces_S1x2000x1_S1 : S1x2000x1.Reduces [1, 2] S1
  dot_S2000x1536_S1536x2_S2000x2_1_0_0_1_n_n_wf : DotDims.WF S2000x1536 S1536x2 S2000x2 [1] [0] [0] [1] [] []
  dot_S2000x1536_S1536x1_S2000x1_1_0_0_1_n_n_wf : DotDims.WF S2000x1536 S1536x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x1536.size a ≤ S1x50000x1536.size a
  hwx0_0 : ∀ i : grid0.Coords, EltTy.bits .f32 = 32 ∨ (Rect.block (s := S1x50000x1536) S1x2000x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1536.size a ≤ S2x1536.size a
  hwx0_1 : ∀ i : grid0.Coords, EltTy.bits .f32 = 32 ∨ (Rect.block (s := S2x1536) S2x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2000x2.size a ≤ S1x50000x2.size a
  hwx0_5 : ∀ i : grid0.Coords, EltTy.bits .f32 = 32 ∨ (Rect.block (s := S1x50000x2) S1x2000x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S2000x1536_S1536x2_S2000x2_1_0_0_1_n_n : DotDims S2000x1536 S1536x2 S2000x2 where
  lhsContracting := [1]
  rhsContracting := [0]
  lhsNonContracting := [0]
  rhsNonContracting := [1]
  lhsBatch := []
  rhsBatch := []
  wf := dot_S2000x1536_S1536x2_S2000x2_1_0_0_1_n_n_wf
def dot_S2000x1536_S1536x1_S2000x1_1_0_0_1_n_n : DotDims S2000x1536 S1536x1 S2000x1 where
  lhsContracting := [1]
  rhsContracting := [0]
  lhsNonContracting := [0]
  rhsNonContracting := [1]
  lhsBatch := []
  rhsBatch := []
  wf := dot_S2000x1536_S1536x1_S2000x1_1_0_0_1_n_n_wf

abbrev win0_0 : Pipeline.Window sig grid0 :=
  Pipeline.Window.ofSpec (Memref.whole main_arg0) S1x2000x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x2000x2.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1x50000x1536 : Shape := ⟨3, ![1, 50000, 1536]⟩
abbrev S1x50000x2 : Shape := ⟨3, ![1, 50000, 2]⟩
abbrev S2x1536 : Shape := ⟨2, ![2, 1536]⟩
abbrev S2 : Shape := ⟨1, ![2]⟩
abbrev S1x1536 : Shape := ⟨2, ![1, 1536]⟩
abbrev S1 : Shape := ⟨1, ![1]⟩
abbrev S50000x1536 : Shape := ⟨2, ![50000, 1536]⟩
abbrev S1536x2 : Shape := ⟨2, ![1536, 2]⟩
abbrev S50000x2 : Shape := ⟨2, ![50000, 2]⟩
abbrev S1x2 : Shape := ⟨2, ![1, 2]⟩
abbrev S1536x1 : Shape := ⟨2, ![1536, 1]⟩
abbrev S50000x1 : Shape := ⟨2, ![50000, 1]⟩
abbrev S1x1 : Shape := ⟨2, ![1, 1]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S1x50000x1536, .f32⟩
  | .hbm, ⟨1, _⟩ => ⟨S1x50000x2, .f32⟩
  | .hbm, ⟨2, _⟩ => ⟨S2x1536, .f32⟩
  | .hbm, ⟨3, _⟩ => ⟨S2, .f32⟩
  | .hbm, ⟨4, _⟩ => ⟨S1x1536, .f32⟩
  | .hbm, ⟨5, _⟩ => ⟨S1, .f32⟩
  | .hbm, ⟨6, _⟩ => ⟨S50000x1536, .f32⟩
  | .hbm, ⟨7, _⟩ => ⟨S1536x2, .f32⟩
  | .hbm, ⟨8, _⟩ => ⟨S50000x2, .f32⟩
  | .hbm, ⟨9, _⟩ => ⟨S1x2, .f32⟩
  | .hbm, ⟨10, _⟩ => ⟨S50000x2, .f32⟩
  | .hbm, ⟨11, _⟩ => ⟨S50000x2, .f32⟩
  | .hbm, ⟨12, _⟩ => ⟨S1536x1, .f32⟩
  | .hbm, ⟨13, _⟩ => ⟨S50000x1, .f32⟩
  | .hbm, ⟨14, _⟩ => ⟨S1x1, .f32⟩
  | .hbm, ⟨15, _⟩ => ⟨S50000x1, .f32⟩
  | .hbm, ⟨16, _⟩ => ⟨S50000x1, .f32⟩
  | .hbm, ⟨17, _⟩ => ⟨S50000x2, .f32⟩
  | .hbm, ⟨18, _⟩ => ⟨S50000x2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x1, .f32⟩
  | .hbm, ⟨25, _⟩ => ⟨S1x50000x2, .f32⟩
  | _, _ => ⟨S1x50000x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  shapeCasts_S1x50000x1536_S50000x1536 : S1x50000x1536.ShapeCasts S50000x1536
  transposes_S2x1536_S1536x2_1_0 : S2x1536.Transposes [1, 0] S1536x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  transposes_S1x1536_S1536x1_1_0 : S1x1536.Transposes [1, 0] S1536x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S50000x1_S50000x2_0_1 : S50000x1.BroadcastsInDim S50000x2 (![0, 1] : Fin 2 → Fin S50000x2.rank)
  reducesTo_S50000x2_S_d0_1 : S50000x2.ReducesTo [0, 1] S_
  h_S_ : 0 < S_.numel
  reducesTo_S50000x1_S_d0_1 : S50000x1.ReducesTo [0, 1] S_
  shapeCasts_S_S1x1 : S_.ShapeCasts S1x1
  bcast_S50000x2_S1x50000x2_1_2 : S50000x2.BroadcastsInDim S1x50000x2 (![1, 2] : Fin 2 → Fin S1x50000x2.rank)
  dot_S50000x1536_S1536x2_S50000x2_1_0_0_1_n_n_wf : DotDims.WF S50000x1536 S1536x2 S50000x2 [1] [0] [0] [1] [] []
  dot_S50000x1536_S1536x1_S50000x1_1_0_0_1_n_n_wf : DotDims.WF S50000x1536 S1536x1 S50000x1 [1] [0] [0] [1] [] []

variable [Facts₀]

def dot_S50000x1536_S1536x2_S50000x2_1_0_0_1_n_n : DotDims S50000x1536 S1536x2 S50000x2 where
  lhsContracting := [1]
  rhsContracting := [0]
  lhsNonContracting := [0]
  rhsNonContracting := [1]
  lhsBatch := []
  rhsBatch := []
  wf := dot_S50000x1536_S1536x2_S50000x2_1_0_0_1_n_n_wf
def dot_S50000x1536_S1536x1_S50000x1_1_0_0_1_n_n : DotDims S50000x1536 S1536x1 S50000x1 where
  lhsContracting := [1]
  rhsContracting := [0]
  lhsNonContracting := [0]
  rhsNonContracting := [1]
  lhsBatch := []
  rhsBatch := []
  wf := dot_S50000x1536_S1536x1_S50000x1_1_0_0_1_n_n_wf

class Facts : Prop extends Facts₀ where

variable [Facts]
-- ==== Proof.CaseValues.lean ====
/-
  What one run of the kernel body leaves behind, case by case, as pure functions of what it loaded.

  The body runs in one of three ways: on the first tile (it first zeroes both running totals), on a middle tile, and on the
  last tile (it also stores the quotient of the two totals). In every case it stores the tile's block of logits; it adds the
  tile's weighted logits to the first running total and the tile's weights to the second. Each buffer it writes is written
  whole, last, by one store, so what the buffer holds afterwards is that store's value; a load of a whole buffer reads the
  buffer's contents, and a load of a total just stored reads the stored value.
-/
import proofs.«166007_j25546465476636_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the block of logits stored. -/
theorem logits_first (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2000x1536 .f32) (x1 : Vec F S2x1536 .f32) (x2 : Vec F S1x2 .f32) (x3 : Vec F S1x1536 .f32) (x4 : Vec F S1x1 .f32) :
    out0_A_5 c i arg1 harg1 arg2 harg2 arg3 harg3 arg4 harg4 arg5 harg5 arg6 harg6 arg7 harg7 arg8 harg8 arg9 harg9 hc0 hc1 x0 x1 x2 x3 x4 = k0_pay8 x0 x1 x2 := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x2000x2) hz3]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- Middle tile: the block of logits stored. -/
theorem logits_middle (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2000x1536 .f32) (x1 : Vec F S2x1536 .f32) (x2 : Vec F S1x2 .f32) (x3 : Vec F S1x1536 .f32) (x4 : Vec F S1x1 .f32) (xs0 : Vec F S1x1 .f32) (xs1 : Vec F S1x1 .f32) :
    out0_B_5 c i arg1 harg1 arg2 harg2 arg3 harg3 arg4 harg4 arg5 harg5 arg6 harg6 arg7 harg7 arg8 harg8 arg9 harg9 hc0 hc1 x0 x1 x2 x3 x4 xs0 xs1 = k0_pay8 x0 x1 x2 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_cons_unit_zero (S := S1x2000x2) hz3]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- Last tile: the block of logits stored. -/
theorem logits_last (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2000x1536 .f32) (x1 : Vec F S2x1536 .f32) (x2 : Vec F S1x2 .f32) (x3 : Vec F S1x1536 .f32) (x4 : Vec F S1x1 .f32) (xs0 : Vec F S1x1 .f32) (xs1 : Vec F S1x1 .f32) :
    out0_C_5 c i arg1 harg1 arg2 harg2 arg3 harg3 arg4 harg4 arg5 harg5 arg6 harg6 arg7 harg7 arg8 harg8 arg9 harg9 hc0 hc1 x0 x1 x2 x3 x4 xs0 xs1 = k0_pay8 x0 x1 x2 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1x2000x2) hz3]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- First tile: the first running total is the tile's share added to the zero just stored. -/
theorem num_first (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2000x1536 .f32) (x1 : Vec F S2x1536 .f32) (x2 : Vec F S1x2 .f32) (x3 : Vec F S1x1536 .f32) (x4 : Vec F S1x1 .f32) :
    sout0_A_0 c i arg1 harg1 arg2 harg2 arg3 harg3 arg4 harg4 arg5 harg5 arg6 harg6 arg7 harg7 arg8 harg8 arg9 harg9 hc0 hc1 x0 x1 x2 x3 x4 = k0_pay9 x0 x1 x2 x3 x4 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x1) hz2]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- Middle tile: the first running total is the tile's share added to what the tile before left. -/
theorem num_middle (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2000x1536 .f32) (x1 : Vec F S2x1536 .f32) (x2 : Vec F S1x2 .f32) (x3 : Vec F S1x1536 .f32) (x4 : Vec F S1x1 .f32) (xs0 : Vec F S1x1 .f32) (xs1 : Vec F S1x1 .f32) :
    sout0_B_0 c i arg1 harg1 arg2 harg2 arg3 harg3 arg4 harg4 arg5 harg5 arg6 harg6 arg7 harg7 arg8 harg8 arg9 harg9 hc0 hc1 x0 x1 x2 x3 x4 xs0 xs1 = k0_pay9 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_cons_unit_zero (S := S1x1) hz2]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- Last tile: the same. -/
theorem num_last (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2000x1536 .f32) (x1 : Vec F S2x1536 .f32) (x2 : Vec F S1x2 .f32) (x3 : Vec F S1x1536 .f32) (x4 : Vec F S1x1 .f32) (xs0 : Vec F S1x1 .f32) (xs1 : Vec F S1x1 .f32) :
    sout0_C_0 c i arg1 harg1 arg2 harg2 arg3 harg3 arg4 harg4 arg5 harg5 arg6 harg6 arg7 harg7 arg8 harg8 arg9 harg9 hc0 hc1 x0 x1 x2 x3 x4 xs0 xs1 = k0_pay9 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1x1) hz2]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- First tile: the second running total is the tile's weights added to the zero just stored. -/
theorem den_first (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2000x1536 .f32) (x1 : Vec F S2x1536 .f32) (x2 : Vec F S1x2 .f32) (x3 : Vec F S1x1536 .f32) (x4 : Vec F S1x1 .f32) :
    sout0_A_1 c i arg1 harg1 arg2 harg2 arg3 harg3 arg4 harg4 arg5 harg5 arg6 harg6 arg7 harg7 arg8 harg8 arg9 harg9 hc0 hc1 x0 x1 x2 x3 x4 = k0_pay1 (k0_pay7 x0 x3 x4) k0_pay4 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x1) hz2]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- Middle tile: the second running total is the tile's weights added to what the tile before left. -/
theorem den_middle (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2000x1536 .f32) (x1 : Vec F S2x1536 .f32) (x2 : Vec F S1x2 .f32) (x3 : Vec F S1x1536 .f32) (x4 : Vec F S1x1 .f32) (xs0 : Vec F S1x1 .f32) (xs1 : Vec F S1x1 .f32) :
    sout0_B_1 c i arg1 harg1 arg2 harg2 arg3 harg3 arg4 harg4 arg5 harg5 arg6 harg6 arg7 harg7 arg8 harg8 arg9 harg9 hc0 hc1 x0 x1 x2 x3 x4 xs0 xs1 = k0_pay1 (k0_pay7 x0 x3 x4) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_cons_unit_zero (S := S1x1) hz2]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- Last tile: the same. -/
theorem den_last (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2000x1536 .f32) (x1 : Vec F S2x1536 .f32) (x2 : Vec F S1x2 .f32) (x3 : Vec F S1x1536 .f32) (x4 : Vec F S1x1 .f32) (xs0 : Vec F S1x1 .f32) (xs1 : Vec F S1x1 .f32) :
    sout0_C_1 c i arg1 harg1 arg2 harg2 arg3 harg3 arg4 harg4 arg5 harg5 arg6 harg6 arg7 harg7 arg8 harg8 arg9 harg9 hc0 hc1 x0 x1 x2 x3 x4 xs0 xs1 = k0_pay1 (k0_pay7 x0 x3 x4) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1x1) hz2]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

/-- Last tile: the quotient stored is that of the two running totals as this tile leaves them. -/
theorem pooled_last (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2000x1536 .f32) (x1 : Vec F S2x1536 .f32) (x2 : Vec F S1x2 .f32) (x3 : Vec F S1x1536 .f32) (x4 : Vec F S1x1 .f32) (xs0 : Vec F S1x1 .f32) (xs1 : Vec F S1x1 .f32) :
    out0_C_6 c i arg1 harg1 arg2 harg2 arg3 harg3 arg4 harg4 arg5 harg5 arg6 harg6 arg7 harg7 arg8 harg8 arg9 harg9 hc0 hc1 x0 x1 x2 x3 x4 xs0 xs1 = k0_pay2 (k0_pay9 x0 x1 x2 x3 x4 xs0) (k0_pay1 (k0_pay7 x0 x3 x4) xs1) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_cons_unit_zero (S := S1x1) hz2]
  simp only [View.readAt_eq_ld, harg1.read_unread, harg2.read_unread, harg3.read_unread, harg4.read_unread, harg5.read_unread, harg8.read_unread, harg9.read_unread, View.readCov_unit_zero (S := S1x1) _ hz2, View.ld_unit_zero (S := S1x2000x1536) hz3, View.ld_unit_zero (S := S2x1536) hz2, View.ld_unit_zero (S := S1x2) hz2, View.ld_unit_zero (S := S1x1536) hz2, View.ld_unit_zero (S := S1x1) hz2]

end Cert.KernelIdeal.CaseValues

end
-- ==== Proof.LibTileSums.lean ====
/-
  Two facts about finite sums, general in the monoid and in the extents.

  (1) An index of a [1, a, b] array is its two free coordinates, so a sum over all indices of such an array is the double
      sum over the coordinates. (The rank-2 form is the library's; this is the form with a leading unit axis, which a
      reduction over every non-unit axis of a [1, a, b] block produces.)
  (2) A quantity accumulated over the points 0, 1, ..., n of a walk, started as zero plus the first point's share and
      increased at each later point by that point's share, is the sum of the shares of the points so far. Stated with the
      bound carried along, as a walk over the points of a grid states it.
-/
import Idealize.ShloMosaic.Lib.ValueIdx

noncomputable section

open scoped BigOperators

namespace LibTileSums

open Idealize.ShloMosaic Idealize.ShloMosaic.ValueIdx

/-- An index of a [1, a, b] array is its two free coordinates. -/
def idxEquivUnit3 {a b : Nat} : (⟨3, ![1, a, b]⟩ : Shape).Idx ≃ Fin a × Fin b where
  toFun i := (i 1, i 2)
  invFun p := ix3 (0 : Fin 1) p.1 p.2
  left_inv i := by
    funext d
    match d with
    | ⟨0, hd⟩ =>
      apply Fin.ext
      have h : (i ⟨0, hd⟩).val < 1 := (i ⟨0, hd⟩).isLt
      show (0 : Nat) = (i ⟨0, hd⟩).val
      omega
    | ⟨1, _⟩ => rfl
    | ⟨2, _⟩ => rfl
  right_inv _ := rfl

/-- So a sum over a [1, a, b] index set is the double sum over the two free coordinates. -/
theorem sum_unit3 {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquivUnit3 (a := a) (b := b)).symm f, Fintype.sum_prod_type]
  rfl

/-- The running total after point n: zero plus the first point's share, then one share more per point. -/
def runningSum {M : Type*} [AddCommMonoid M] {N : Nat} (B : (n : Nat) → n < N → M) : (n : Nat) → n < N → M
  | 0, h => 0 + B 0 h
  | n + 1, h => runningSum B n (Nat.lt_of_succ_lt h) + B (n + 1) h

/-- One point more: the running total so far plus that point's share. -/
theorem runningSum_succ {M : Type*} [AddCommMonoid M] {N : Nat} (B : (n : Nat) → n < N → M) (n : Nat) (h : n + 1 < N) :
    runningSum B (n + 1) h = runningSum B n (Nat.lt_of_succ_lt h) + B (n + 1) h := rfl

/-- It is the sum of the shares of the points so far. -/
theorem runningSum_eq {M : Type*} [AddCommMonoid M] {N : Nat} (B : (n : Nat) → n < N → M) :
    ∀ (n : Nat) (h : n < N), runningSum B n h = ∑ t : Fin (n + 1), B t.val (Nat.lt_of_lt_of_le t.isLt h)
  | 0, h => by
    rw [runningSum, zero_add, Fin.sum_univ_one]
    rfl
  | n + 1, h => by
    rw [runningSum, runningSum_eq B n]
    conv_rhs => rw [Fin.sum_univ_castSucc]
    rfl

end LibTileSums

end
-- ==== Proof.Spec.lean ====
/-
  The function both programs compute, over the extended reals.

  From a feature array x[1, 50000, 1536], class weights wc[2, 1536] with bias bc[2], and an attention row wa[1, 1536] with
  bias ba[1]:
    logit r q  = (sum over k of x[0, r, k] * wc[q, k]) + bc[q]        -- one logit per row r and class q
    weight r   = (sum over k of x[0, r, k] * wa[0, k]) + ba[0]        -- one weight per row r
    pooled     = (sum over r, q of weight r * logit r q) / (sum over r of weight r)
  The results are the array of all logits and the one pooled number.

  The kernel walks the 50000 rows in 25 tiles of 2000 rows and keeps two running totals (numerator and denominator), each
  started at zero on the first tile; the reference sums all rows at once. Addition of extended reals is commutative and
  associative, so the running total after the last tile is the total over all rows: no finiteness is needed anywhere.
-/
import Idealize.ShloMosaic.PureOps.Ideal.Laws
import Idealize.ShloMosaic.Lib.ValueIdx
import proofs.«166007_j25546465476636_1_alg».proof.Proof.LibTileSums

noncomputable section

open scoped BigOperators

namespace Cert.PooledLogits

open Idealize.ShloMosaic Idealize.ShloMosaic.ValueIdx

export LibTileSums (sum_unit3 runningSum runningSum_succ runningSum_eq)

/-! ## Tiles of rows -/

/-- Row l of tile t, among the 50000 rows. -/
def tileRow (t : Fin 25) (l : Fin 2000) : Fin 50000 :=
  ⟨2000 * t.val + l.val, by have := t.isLt; have := l.isLt; omega⟩

/-- Summing tile by tile, and inside each tile row by row, visits every row once. -/
theorem sum_tiles {M : Type*} [AddCommMonoid M] (f : Fin 50000 → M) :
    ∑ t : Fin 25, ∑ l : Fin 2000, f (tileRow t l) = ∑ r : Fin 50000, f r := by
  rw [← Fintype.sum_prod_type (f := fun p : Fin 25 × Fin 2000 => f (tileRow p.1 p.2))]
  refine Fintype.sum_equiv (finProdFinEquiv (m := 25) (n := 2000)) _ _ fun p => congrArg f (Fin.ext ?_)
  show 2000 * p.1.val + p.2.val = p.2.val + 2000 * p.1.val
  omega

/-! ## The specification -/

abbrev Feat := (⟨3, ![1, 50000, 1536]⟩ : Shape).Idx → EReal
abbrev ClassW := (⟨2, ![2, 1536]⟩ : Shape).Idx → EReal
abbrev ClassB := (⟨1, ![2]⟩ : Shape).Idx → EReal
abbrev AttnW := (⟨2, ![1, 1536]⟩ : Shape).Idx → EReal
abbrev AttnB := (⟨1, ![1]⟩ : Shape).Idx → EReal

/-- Row r's logit of class q. -/
def rowLogit (x : Feat) (wc : ClassW) (bc : ClassB) (r : Fin 50000) (q : Fin 2) : EReal :=
  (∑ k : Fin 1536, x (ix3 (0 : Fin 1) r k) * wc (ix2 q k)) + bc (ix1 q)

/-- Row r's weight. -/
def rowWeight (x : Feat) (wa : AttnW) (ba : AttnB) (r : Fin 50000) : EReal :=
  (∑ k : Fin 1536, x (ix3 (0 : Fin 1) r k) * wa (ix2 (0 : Fin 1) k)) + ba (ix1 (0 : Fin 1))

/-- The array of all logits. -/
def logitsArr (x : Feat) (wc : ClassW) (bc : ClassB) : (⟨3, ![1, 50000, 2]⟩ : Shape).Idx → EReal :=
  fun i => rowLogit x wc bc (i 1) (i 2)

/-- The weighted sum of all logits, and the sum of all weights. -/
def weightedTotal (x : Feat) (wc : ClassW) (bc : ClassB) (wa : AttnW) (ba : AttnB) : EReal :=
  ∑ r : Fin 50000, ∑ q : Fin 2, rowWeight x wa ba r * rowLogit x wc bc r q
def weightTotal (x : Feat) (wa : AttnW) (ba : AttnB) : EReal :=
  ∑ r : Fin 50000, rowWeight x wa ba r

/-- The pooled number, as a [1, 1] array. -/
def pooledArr (x : Feat) (wc : ClassW) (bc : ClassB) (wa : AttnW) (ba : AttnB) : (⟨2, ![1, 1]⟩ : Shape).Idx → EReal :=
  fun _ => Ideal.div (weightedTotal x wc bc wa ba) (weightTotal x wa ba)

/-! ## One tile's share, over the tile's block of rows -/

abbrev FeatBlock := (⟨3, ![1, 2000, 1536]⟩ : Shape).Idx → EReal
abbrev ClassBRow := (⟨2, ![1, 2]⟩ : Shape).Idx → EReal
abbrev AttnBCell := (⟨2, ![1, 1]⟩ : Shape).Idx → EReal

/-- The logit of row l of a block, the class bias given as a one-row array. -/
def blockLogit (xb : FeatBlock) (wc : ClassW) (bc : ClassBRow) (l : Fin 2000) (q : Fin 2) : EReal :=
  (∑ k : Fin 1536, xb (ix3 (0 : Fin 1) l k) * wc (ix2 q k)) + bc (ix2 (0 : Fin 1) q)

/-- The weight of row l of a block, the attention bias given as a one-cell array. -/
def blockWeight (xb : FeatBlock) (wa : AttnW) (ba : AttnBCell) (l : Fin 2000) : EReal :=
  (∑ k : Fin 1536, xb (ix3 (0 : Fin 1) l k) * wa (ix2 (0 : Fin 1) k)) + ba (ix2 (0 : Fin 1) (0 : Fin 1))

/-- A block's share of the numerator and of the denominator. -/
def blockNum (xb : FeatBlock) (wc : ClassW) (bc : ClassBRow) (wa : AttnW) (ba : AttnBCell) : EReal :=
  ∑ l : Fin 2000, ∑ q : Fin 2, blockWeight xb wa ba l * blockLogit xb wc bc l q
def blockDen (xb : FeatBlock) (wa : AttnW) (ba : AttnBCell) : EReal :=
  ∑ l : Fin 2000, blockWeight xb wa ba l

end Cert.PooledLogits

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.Payloads.lean ====
/-
  The body's arithmetic, read one entry at a time over the extended reals.

  From a block xb of 2000 feature rows: the stored logit of row l and class q is the product of row l with row q of the class
  weights, summed over the 1536 features, plus the class bias; the weight of row l is the same against the attention row
  plus the attention bias. The first running total grows by the sum over the block's rows and both classes of weight times
  logit; the second by the sum of the block's weights. The matrix unit accumulates into zero, a transposed operand is
  read with its coordinates exchanged, and a reduction over every non-unit axis is the sum over all entries.
-/
import proofs.«166007_j25546465476636_1_alg».proof.Proof.Gen.KernelIdeal.Skeleton
import proofs.«166007_j25546465476636_1_alg».proof.Proof.Spec
import proofs.«166007_j25546465476636_1_alg».proof.Proof.LibMatmulNN
import proofs.«166007_j25546465476636_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayloadValues

open Cert.KernelIdeal Cert.KernelIdeal.Gen Cert.PooledLogits Idealize.ShloMosaic Idealize.ShloMosaic.ValueIdx

/-- The block viewed as a 2000 by 1536 matrix: entry (p, k) is feature k of row p. -/
theorem feat_at (x0 : Vec Ideal S1x2000x1536 .f32) (p : Fin 2000) (k : Fin 1536) :
    k0_pay5 x0 (ix2 p k) = x0 (ix3 (0 : Fin 1) p k) :=
  shapeCast_1ab_ab_apply x0 _ p k

/-- The logit of row p and class q of the block. -/
theorem logit_at (x0 : Vec Ideal S1x2000x1536 .f32) (x1 : Vec Ideal S2x1536 .f32) (x2 : Vec Ideal S1x2 .f32)
    (p : Fin 2000) (q : Fin 2) : k0_pay6 x0 x1 x2 (ix2 p q) = blockLogit x0 x1 x2 p q := by
  unfold k0_pay6 blockLogit
  refine congrArg₂ (· + ·) ?_ ?_
  · refine (LibMatmulNN.matmul_zero_apply 2000 1536 2 none (k0_pay5 x0) _ p q).trans ?_
    refine Finset.sum_congr rfl fun k _ => ?_
    exact congrArg₂ (· * ·) (feat_at x0 p k) (transpose_ix2_apply x1 _ k q)
  · refine (broadcastTo_1b_ab_apply _ _ p q).trans ?_
    exact congrFun (shapeCast_self x2 _) _

/-- The weight of row p of the block. -/
theorem weight_at (x0 : Vec Ideal S1x2000x1536 .f32) (x3 : Vec Ideal S1x1536 .f32) (x4 : Vec Ideal S1x1 .f32)
    (p : Fin 2000) : k0_pay7 x0 x3 x4 (ix2 p (0 : Fin 1)) = blockWeight x0 x3 x4 p := by
  unfold k0_pay7 blockWeight
  refine congrArg₂ (· + ·) ?_ ?_
  · refine (LibMatmulNN.matmul_zero_apply 2000 1536 1 none (k0_pay5 x0) _ p (0 : Fin 1)).trans ?_
    refine Finset.sum_congr rfl fun k _ => ?_
    exact congrArg₂ (· * ·) (feat_at x0 p k) (transpose_ix2_apply x3 _ k (0 : Fin 1))
  · refine (broadcastTo_1b_ab_apply _ _ p (0 : Fin 1)).trans ?_
    exact congrFun (shapeCast_self x4 _) _

/-- An entry of the stored block of logits: that of its row and class, whatever the unit coordinate. -/
theorem logits_entry (x0 : Vec Ideal S1x2000x1536 .f32) (x1 : Vec Ideal S2x1536 .f32) (x2 : Vec Ideal S1x2 .f32)
    (y : S1x2000x2.Idx) : k0_pay8 x0 x1 x2 y = blockLogit x0 x1 x2 (y 1) (y 2) := by
  obtain ⟨u, l, q, rfl⟩ : ∃ (u : Fin 1) (l : Fin 2000) (q : Fin 2), y = ix3 u l q := ⟨y 0, y 1, y 2, eq_ix3 y⟩
  unfold k0_pay8
  exact (shapeCast_ab_1ab_apply _ _ u l q).trans (logit_at x0 x1 x2 l q)

/-- Every axis of the one-entry shape has extent one. -/
theorem unit_S1 : ∀ b, S1.size b = 1 := fun b => by fin_cases b; rfl

/-- The step of the first running total: what it held plus the block's sum of weight times logit. -/
theorem num_step (x0 : Vec Ideal S1x2000x1536 .f32) (x1 : Vec Ideal S2x1536 .f32) (x2 : Vec Ideal S1x2 .f32)
    (x3 : Vec Ideal S1x1536 .f32) (x4 : Vec Ideal S1x1 .f32) (acc : Vec Ideal S1x1 .f32) (i : S1x1.Idx) :
    k0_pay9 x0 x1 x2 x3 x4 acc i = acc i + blockNum x0 x1 x2 x3 x4 := by
  unfold k0_pay9 blockNum
  refine (congrFun (shapeCast_self _ _) i).trans ?_
  refine congrArg (acc i + ·) ?_
  refine (Ideal.multiReduction_add_total _ 0x00000000#32 reduces_S1x2000x2_S1 unit_S1 (.inl rfl) rfl _).trans ?_
  refine (sum_unit3 _).trans ?_
  refine Finset.sum_congr rfl fun l _ => Finset.sum_congr rfl fun q _ => ?_
  refine (shapeCast_ab_1ab_apply _ _ (0 : Fin 1) l q).trans ?_
  exact congrArg₂ (· * ·) ((broadcastTo_a1_ab_apply _ _ l q).trans (weight_at x0 x3 x4 l)) (logit_at x0 x1 x2 l q)

/-- The step of the second running total: what it held plus the sum of a column of 2000 weights. -/
theorem den_step (w : FVec Ideal S2000x1 .f32) (acc : Vec Ideal S1x1 .f32) (i : S1x1.Idx) :
    k0_pay1 w acc i = acc i + ∑ l : Fin 2000, w (ix2 l (0 : Fin 1)) := by
  unfold k0_pay1
  refine (congrFun (shapeCast_self _ _) i).trans ?_
  refine congrArg (acc i + ·) ?_
  refine (Ideal.multiReduction_add_total _ 0x00000000#32 reduces_S1x2000x1_S1 unit_S1 (.inl rfl) rfl _).trans ?_
  refine (sum_unit3 _).trans ?_
  refine Finset.sum_congr rfl fun l _ => ?_
  refine (Fin.sum_univ_one _).trans ?_
  exact shapeCast_ab_1ab_apply _ _ (0 : Fin 1) l (0 : Fin 1)

/-- The quotient stored at the last tile. -/
theorem quot_at (a b : Vec Ideal S1x1 .f32) (i : S1x1.Idx) : k0_pay2 a b i = Ideal.div (a i) (b i) := rfl

/-- The two zeros stored at the first tile. -/
theorem zero_num (i : S1x1.Idx) : k0_pay3 (F := Ideal) i = 0 := by
  unfold k0_pay3
  refine (congrFun (shapeCast_self _ _) i).trans ?_
  exact Ideal.ofBits_zero_f32
theorem zero_den (i : S1x1.Idx) : k0_pay4 (F := Ideal) i = 0 := by
  unfold k0_pay4
  refine (congrFun (shapeCast_self _ _) i).trans ?_
  exact Ideal.ofBits_zero_f32

end Cert.KernelIdeal.PayloadValues

end
-- ==== Proof.Steps.lean ====
/-
  One tile's effect on the two running totals and on the pooled number, over the extended reals.

  On the first tile each total becomes zero plus the tile's share; on a later tile it becomes what the tile before left plus
  the tile's share; on the last tile the number stored is the first total divided by the second, both as the last tile
  leaves them. The tile's share of the second total is the sum of its 2000 weights.
-/
import proofs.«166007_j25546465476636_1_alg».proof.Proof.CaseValues
import proofs.«166007_j25546465476636_1_alg».proof.Proof.Payloads

noncomputable section

open scoped BigOperators

namespace Cert.KernelIdeal.Steps

open Cert.KernelIdeal Cert.KernelIdeal.Gen Cert.PooledLogits Idealize.ShloMosaic Idealize.ShloMosaic.ValueIdx
open Cert.KernelIdeal.CaseValues Cert.KernelIdeal.PayloadValues

/-- The second total's step in terms of the block: the sum of the column of weights is the block's share. -/
theorem den_share (x0 : Vec Ideal S1x2000x1536 .f32) (x3 : Vec Ideal S1x1536 .f32) (x4 : Vec Ideal S1x1 .f32)
    (acc : Vec Ideal S1x1 .f32) (j : S1x1.Idx) : k0_pay1 (k0_pay7 x0 x3 x4) acc j = acc j + blockDen x0 x3 x4 := by
  rw [den_step]
  exact congrArg (acc j + ·) (Finset.sum_congr rfl fun l _ => weight_at x0 x3 x4 l)

theorem logits_first_at (y : S1x2000x2.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec Ideal S1x2000x1536 .f32) (x1 : Vec Ideal S2x1536 .f32) (x2 : Vec Ideal S1x2 .f32) (x3 : Vec Ideal S1x1536 .f32) (x4 : Vec Ideal S1x1 .f32) :
    out0_A_5 c i arg1 harg1 arg2 harg2 arg3 harg3 arg4 harg4 arg5 harg5 arg6 harg6 arg7 harg7 arg8 harg8 arg9 harg9 hc0 hc1 x0 x1 x2 x3 x4 y = blockLogit x0 x1 x2 (y 1) (y 2) := by
  rw [logits_first, logits_entry]

theorem logits_middle_at (y : S1x2000x2.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec Ideal S1x2000x1536 .f32) (x1 : Vec Ideal S2x1536 .f32) (x2 : Vec Ideal S1x2 .f32) (x3 : Vec Ideal S1x1536 .f32) (x4 : Vec Ideal S1x1 .f32) (xs0 : Vec Ideal S1x1 .f32) (xs1 : Vec Ideal S1x1 .f32) :
    out0_B_5 c i arg1 harg1 arg2 harg2 arg3 harg3 arg4 harg4 arg5 harg5 arg6 harg6 arg7 harg7 arg8 harg8 arg9 harg9 hc0 hc1 x0 x1 x2 x3 x4 xs0 xs1 y = blockLogit x0 x1 x2 (y 1) (y 2) := by
  rw [logits_middle, logits_entry]

theorem logits_last_at (y : S1x2000x2.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec Ideal S1x2000x1536 .f32) (x1 : Vec Ideal S2x1536 .f32) (x2 : Vec Ideal S1x2 .f32) (x3 : Vec Ideal S1x1536 .f32) (x4 : Vec Ideal S1x1 .f32) (xs0 : Vec Ideal S1x1 .f32) (xs1 : Vec Ideal S1x1 .f32) :
    out0_C_5 c i arg1 harg1 arg2 harg2 arg3 harg3 arg4 harg4 arg5 harg5 arg6 harg6 arg7 harg7 arg8 harg8 arg9 harg9 hc0 hc1 x0 x1 x2 x3 x4 xs0 xs1 y = blockLogit x0 x1 x2 (y 1) (y 2) := by
  rw [logits_last, logits_entry]

theorem num_first_at (j : S1x1.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec Ideal S1x2000x1536 .f32) (x1 : Vec Ideal S2x1536 .f32) (x2 : Vec Ideal S1x2 .f32) (x3 : Vec Ideal S1x1536 .f32) (x4 : Vec Ideal S1x1 .f32) :
    sout0_A_0 c i arg1 harg1 arg2 harg2 arg3 harg3 arg4 harg4 arg5 harg5 arg6 harg6 arg7 harg7 arg8 harg8 arg9 harg9 hc0 hc1 x0 x1 x2 x3 x4 j = 0 + blockNum x0 x1 x2 x3 x4 := by
  rw [num_first, num_step, zero_num]

theorem num_middle_at (j : S1x1.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec Ideal S1x2000x1536 .f32) (x1 : Vec Ideal S2x1536 .f32) (x2 : Vec Ideal S1x2 .f32) (x3 : Vec Ideal S1x1536 .f32) (x4 : Vec Ideal S1x1 .f32) (xs0 : Vec Ideal S1x1 .f32) (xs1 : Vec Ideal S1x1 .f32) :
    sout0_B_0 c i arg1 harg1 arg2 harg2 arg3 harg3 arg4 harg4 arg5 harg5 arg6 harg6 arg7 harg7 arg8 harg8 arg9 harg9 hc0 hc1 x0 x1 x2 x3 x4 xs0 xs1 j = xs0 j + blockNum x0 x1 x2 x3 x4 := by
  rw [num_middle, num_step]

theorem num_last_at (j : S1x1.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec Ideal S1x2000x1536 .f32) (x1 : Vec Ideal S2x1536 .f32) (x2 : Vec Ideal S1x2 .f32) (x3 : Vec Ideal S1x1536 .f32) (x4 : Vec Ideal S1x1 .f32) (xs0 : Vec Ideal S1x1 .f32) (xs1 : Vec Ideal S1x1 .f32) :
    sout0_C_0 c i arg1 harg1 arg2 harg2 arg3 harg3 arg4 harg4 arg5 harg5 arg6 harg6 arg7 harg7 arg8 harg8 arg9 harg9 hc0 hc1 x0 x1 x2 x3 x4 xs0 xs1 j = xs0 j + blockNum x0 x1 x2 x3 x4 := by
  rw [num_last, num_step]

theorem den_first_at (j : S1x1.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec Ideal S1x2000x1536 .f32) (x1 : Vec Ideal S2x1536 .f32) (x2 : Vec Ideal S1x2 .f32) (x3 : Vec Ideal S1x1536 .f32) (x4 : Vec Ideal S1x1 .f32) :
    sout0_A_1 c i arg1 harg1 arg2 harg2 arg3 harg3 arg4 harg4 arg5 harg5 arg6 harg6 arg7 harg7 arg8 harg8 arg9 harg9 hc0 hc1 x0 x1 x2 x3 x4 j = 0 + blockDen x0 x3 x4 := by
  rw [den_first, den_share, zero_den]

theorem den_middle_at (j : S1x1.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec Ideal S1x2000x1536 .f32) (x1 : Vec Ideal S2x1536 .f32) (x2 : Vec Ideal S1x2 .f32) (x3 : Vec Ideal S1x1536 .f32) (x4 : Vec Ideal S1x1 .f32) (xs0 : Vec Ideal S1x1 .f32) (xs1 : Vec Ideal S1x1 .f32) :
    sout0_B_1 c i arg1 harg1 arg2 harg2 arg3 harg3 arg4 harg4 arg5 harg5 arg6 harg6 arg7 harg7 arg8 harg8 arg9 harg9 hc0 hc1 x0 x1 x2 x3 x4 xs0 xs1 j = xs1 j + blockDen x0 x3 x4 := by
  rw [den_middle, den_share]

theorem den_last_at (j : S1x1.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec Ideal S1x2000x1536 .f32) (x1 : Vec Ideal S2x1536 .f32) (x2 : Vec Ideal S1x2 .f32) (x3 : Vec Ideal S1x1536 .f32) (x4 : Vec Ideal S1x1 .f32) (xs0 : Vec Ideal S1x1 .f32) (xs1 : Vec Ideal S1x1 .f32) :
    sout0_C_1 c i arg1 harg1 arg2 harg2 arg3 harg3 arg4 harg4 arg5 harg5 arg6 harg6 arg7 harg7 arg8 harg8 arg9 harg9 hc0 hc1 x0 x1 x2 x3 x4 xs0 xs1 j = xs1 j + blockDen x0 x3 x4 := by
  rw [den_last, den_share]

theorem pooled_last_at (j : S1x1.Idx) (c : Dev nD) (i : grid0.Coords) (arg1 : Memref sig .tc .vmem S1x2000x1536 .f32) (harg1 : arg1.IsWhole) (arg2 : Memref sig .tc .vmem S2x1536 .f32) (harg2 : arg2.IsWhole) (arg3 : Memref sig .tc .vmem S1x2 .f32) (harg3 : arg3.IsWhole) (arg4 : Memref sig .tc .vmem S1x1536 .f32) (harg4 : arg4.IsWhole) (arg5 : Memref sig .tc .vmem S1x1 .f32) (harg5 : arg5.IsWhole) (arg6 : Memref sig .tc .vmem S1x2000x2 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec Ideal S1x2000x1536 .f32) (x1 : Vec Ideal S2x1536 .f32) (x2 : Vec Ideal S1x2 .f32) (x3 : Vec Ideal S1x1536 .f32) (x4 : Vec Ideal S1x1 .f32) (xs0 : Vec Ideal S1x1 .f32) (xs1 : Vec Ideal S1x1 .f32) :
    out0_C_6 c i arg1 harg1 arg2 harg2 arg3 harg3 arg4 harg4 arg5 harg5 arg6 harg6 arg7 harg7 arg8 harg8 arg9 harg9 hc0 hc1 x0 x1 x2 x3 x4 xs0 xs1 j
      = Ideal.div (xs0 j + blockNum x0 x1 x2 x3 x4) (xs1 j + blockDen x0 x3 x4) := by
  rw [pooled_last, quot_at, num_step, den_share]

end Cert.KernelIdeal.Steps

end
-- ==== Proof.Blocks.lean ====
/-
  What the kernel's windows show it at tile t, in terms of the argument arrays.

  The feature window shows rows 2000 t to 2000 t + 1999; the four small windows show their whole arrays at every tile. The
  class bias and the attention bias reach the kernel reshaped, [2] as [1, 2] and [1] as [1, 1]: the same entries. So a
  block's logit of its row l is the whole array's logit of row 2000 t + l, and likewise the weight.
-/
import proofs.«166007_j25546465476636_1_alg».proof.Proof.Gen.KernelIdeal.Value
import proofs.«166007_j25546465476636_1_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

open scoped BigOperators

namespace Cert.KernelIdeal.Blocks

open Cert.KernelIdeal Cert.KernelIdeal.Gen Cert.PooledLogits Idealize.ShloMosaic Idealize.ShloMosaic.TcCoe Idealize.SL.Sem
open Idealize.ShloMosaic.ValueIdx

variable (m : (ℓ : Loc nD τ sig) → Buf (Elt Ideal) ℓ)

/-- The printed index maps, decided once over the 25 tiles: the feature window and the logits window move along the
    row axis with the tile; every other window stays at block zero. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0
    ∧ win0_6.index t (0 : Fin 2) = 0 ∧ win0_6.index t (1 : Fin 2) = 0 :=
  (by decide +kernel : ∀ t : Fin grid0.N, _)

/-- The features the kernel sees at tile t: row l of the block is row 2000 t + l of the array. -/
theorem feat_block (c : Dev nD) (t : Fin cfg0.N) (l : Fin 2000) (k : Fin 1536) (r : Fin 50000)
    (hr : r.val = 2000 * t.val + l.val) :
    (iblk m c 0 t : Vec Ideal S1x2000x1536 .f32) (ix3 (0 : Fin 1) l k)
      = m ((c : Thread nD τ).loc main_arg0) (ix3 (0 : Fin 1) r k) := by
  obtain ⟨e0, e1, e2, -⟩ := idx_facts t
  show V m c main_arg0 (((cfg0.win 0).blk t).view.emb (ix3 (0 : Fin 1) l k)) = _
  rw [V_main_arg0]
  refine congrArg _ (funext fun a => Fin.ext ?_)
  match a with
  | ⟨0, _⟩ => show win0_0.index t (0 : Fin 3) * 1 + 1 * 0 = 0; omega
  | ⟨1, _⟩ => show win0_0.index t (1 : Fin 3) * 2000 + 1 * l.val = r.val; omega
  | ⟨2, _⟩ => show win0_0.index t (2 : Fin 3) * 1536 + 1 * k.val = k.val; omega

/-- The class weights the kernel sees are the whole array, at every tile. -/
theorem wc_block (c : Dev nD) (t : Fin cfg0.N) :
    (iblk m c 1 t : Vec Ideal S2x1536 .f32) = m ((c : Thread nD τ).loc main_arg2) := by
  obtain ⟨-, -, -, e0, e1, -⟩ := idx_facts t
  funext y
  show V m c main_arg2 (((cfg0.win 1).blk t).view.emb y) = _
  rw [V_main_arg2]
  refine congrArg _ (funext fun a => Fin.ext ?_)
  match a with
  | ⟨0, _⟩ => show win0_1.index t (0 : Fin 2) * 2 + 1 * (y 0).val = (y 0).val; omega
  | ⟨1, _⟩ => show win0_1.index t (1 : Fin 2) * 1536 + 1 * (y 1).val = (y 1).val; omega

/-- The attention row the kernel sees is the whole array, at every tile. -/
theorem wa_block (c : Dev nD) (t : Fin cfg0.N) :
    (iblk m c 3 t : Vec Ideal S1x1536 .f32) = m ((c : Thread nD τ).loc main_arg4) := by
  obtain ⟨-, -, -, -, -, -, -, e0, e1, -⟩ := idx_facts t
  funext y
  show V m c main_arg4 (((cfg0.win 3).blk t).view.emb y) = _
  rw [V_main_arg4]
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 1536 + 1 * (y 1).val = (y 1).val; omega

/-- The one-row class bias the region finds is the class bias reshaped. -/
theorem bias_row (c : Dev nD) :
    (V m c main_v0 : S1x2.Idx → EReal) = shapeCast S1x2 (m ((c : Thread nD τ).loc main_arg3)) shapeCasts_S2_S1x2 := by
  dsimp only [V, hostOps0]; after_results; rfl

/-- The one-cell attention bias the region finds is the attention bias reshaped. -/
theorem bias_cell (c : Dev nD) :
    (V m c main_v1 : S1x1.Idx → EReal) = shapeCast S1x1 (m ((c : Thread nD τ).loc main_arg5)) shapeCasts_S1_S1x1 := by
  dsimp only [V, hostOps0]; after_results; rfl

/-- The class bias the kernel sees at class q is the argument's entry q. -/
theorem bc_block (c : Dev nD) (t : Fin cfg0.N) (q : Fin 2) :
    (iblk m c 2 t : Vec Ideal S1x2 .f32) (ix2 (0 : Fin 1) q) = m ((c : Thread nD τ).loc main_arg3) (ix1 q) := by
  obtain ⟨-, -, -, -, -, e0, e1, -⟩ := idx_facts t
  have hemb : ((cfg0.win 2).blk t).view.emb (ix2 (0 : Fin 1) q) = ix2 (0 : Fin 1) q :=
    funext fun a => Fin.ext (by
      match a with
      | ⟨0, _⟩ => show win0_2.index t (0 : Fin 2) * 1 + 1 * 0 = 0; omega
      | ⟨1, _⟩ => show win0_2.index t (1 : Fin 2) * 2 + 1 * q.val = q.val; omega)
  show V m c main_v0 (((cfg0.win 2).blk t).view.emb (ix2 (0 : Fin 1) q)) = _
  rw [hemb, bias_row]
  exact shapeCast_a_1a_apply _ _ (0 : Fin 1) q

/-- The attention bias the kernel sees is the argument's one entry. -/
theorem ba_block (c : Dev nD) (t : Fin cfg0.N) :
    (iblk m c 4 t : Vec Ideal S1x1 .f32) (ix2 (0 : Fin 1) (0 : Fin 1)) = m ((c : Thread nD τ).loc main_arg5) (ix1 (0 : Fin 1)) := by
  obtain ⟨-, -, -, -, -, -, -, -, -, e0, e1, -⟩ := idx_facts t
  have hemb : ((cfg0.win 4).blk t).view.emb (ix2 (0 : Fin 1) (0 : Fin 1)) = ix2 (0 : Fin 1) (0 : Fin 1) :=
    funext fun a => Fin.ext (by
      match a with
      | ⟨0, _⟩ => show win0_4.index t (0 : Fin 2) * 1 + 1 * 0 = 0; omega
      | ⟨1, _⟩ => show win0_4.index t (1 : Fin 2) * 1 + 1 * 0 = 0; omega)
  show V m c main_v1 (((cfg0.win 4).blk t).view.emb (ix2 (0 : Fin 1) (0 : Fin 1))) = _
  rw [hemb, bias_cell]
  exact shapeCast_a_1a_apply _ _ (0 : Fin 1) (0 : Fin 1)

/-- A block's logit of its row l is the array's logit of row 2000 t + l. -/
theorem tile_logit (c : Dev nD) (t : Fin cfg0.N) (l : Fin 2000) (q : Fin 2) (r : Fin 50000) (q' : Fin 2)
    (hr : r.val = 2000 * t.val + l.val) (hq : q'.val = q.val) :
    blockLogit (iblk m c 0 t) (iblk m c 1 t) (iblk m c 2 t) l q
      = rowLogit (m ((c : Thread nD τ).loc main_arg0)) (m ((c : Thread nD τ).loc main_arg2)) (m ((c : Thread nD τ).loc main_arg3)) r q' := by
  obtain rfl : q' = q := Fin.ext hq
  unfold blockLogit rowLogit
  refine congrArg₂ (· + ·) (Finset.sum_congr rfl fun k _ => congrArg₂ (· * ·) (feat_block m c t l k r hr) ?_) (bc_block m c t q')
  exact congrFun (wc_block m c t) _

/-- A block's weight of its row l is the array's weight of row 2000 t + l. -/
theorem tile_weight (c : Dev nD) (t : Fin cfg0.N) (l : Fin 2000) (r : Fin 50000) (hr : r.val = 2000 * t.val + l.val) :
    blockWeight (iblk m c 0 t) (iblk m c 3 t) (iblk m c 4 t) l
      = rowWeight (m ((c : Thread nD τ).loc main_arg0)) (m ((c : Thread nD τ).loc main_arg4)) (m ((c : Thread nD τ).loc main_arg5)) r := by
  unfold blockWeight rowWeight
  refine congrArg₂ (· + ·) (Finset.sum_congr rfl fun k _ => congrArg₂ (· * ·) (feat_block m c t l k r hr) ?_) (ba_block m c t)
  exact congrFun (wa_block m c t) _

end Cert.KernelIdeal.Blocks

end
-- ==== Proof.KernelTotals.lean ====
/-
  The kernel's two running totals, over the extended reals.

  After tile n the first running total is the running sum of the tiles' shares of the numerator up to n, and the second
  that of the denominators: by induction on the tile, the first tile adding its share to zero and every later tile adding
  its share to what the tile before left. The last tile stores the quotient of the two totals as it leaves them. A tile's
  share is the sum over its 2000 rows of the whole array's rows 2000 t + l, so the running sum after the last tile is the
  total over all 50000 rows.
-/
import proofs.«166007_j25546465476636_1_alg».proof.Proof.Steps
import proofs.«166007_j25546465476636_1_alg».proof.Proof.Blocks

noncomputable section

open scoped BigOperators

namespace Cert.KernelIdeal.Pooled

open Cert.KernelIdeal Cert.KernelIdeal.Gen Cert.PooledLogits Idealize.ShloMosaic Idealize.ShloMosaic.TcCoe Idealize.SL.Sem
open Idealize.ShloMosaic.ValueIdx
open Idealize.ShloMosaic.Pipeline (Dat)
open Cert.KernelIdeal.CaseValues Cert.KernelIdeal.PayloadValues Cert.KernelIdeal.Steps Cert.KernelIdeal.Blocks

variable (m : (ℓ : Loc nD τ sig) → Buf (Elt Ideal) ℓ) (ρ : Dev nD → PrngReg)

/-- Tile n's share of the numerator and of the denominator, over the blocks the kernel sees there. -/
def numShare (c : Dev nD) (n : Nat) (h : n < cfg0.N) : EReal :=
  blockNum (iblk m c 0 ⟨n, h⟩) (iblk m c 1 ⟨n, h⟩) (iblk m c 2 ⟨n, h⟩) (iblk m c 3 ⟨n, h⟩) (iblk m c 4 ⟨n, h⟩)
def denShare (c : Dev nD) (n : Nat) (h : n < cfg0.N) : EReal :=
  blockDen (iblk m c 0 ⟨n, h⟩) (iblk m c 3 ⟨n, h⟩) (iblk m c 4 ⟨n, h⟩)

/-- The first tile leaves each total at zero plus its share. -/
theorem step_first (c : Dev nD) (t : Fin cfg0.N) (h0 : t.val % 25 = 0) (h1 : ¬ t.val % 25 = 24) (j : S1x1.Idx) :
    (outsAt0 m c t.val t.isLt).2.2.1 j = 0 + numShare m c t.val t.isLt
    ∧ (outsAt0 m c t.val t.isLt).2.2.2 j = 0 + denShare m c t.val t.isLt := by
  rw [outsAt0_A m c t h0 h1]
  exact ⟨num_first_at j c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h' => h1 ((hcond0_1 t).mp h')) (iblk m c 0 t) (iblk m c 1 t) (iblk m c 2 t) (iblk m c 3 t) (iblk m c 4 t),
    den_first_at j c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h' => h1 ((hcond0_1 t).mp h')) (iblk m c 0 t) (iblk m c 1 t) (iblk m c 2 t) (iblk m c 3 t) (iblk m c 4 t)⟩

/-- Every later tile leaves each total at what the tile before left plus its share. -/
theorem step_next (c : Dev nD) (t : Fin cfg0.N) (h0 : ¬ t.val % 25 = 0) (j : S1x1.Idx) :
    (outsAt0 m c t.val t.isLt).2.2.1 j = (outsAt0 m c (t.val - 1) (Nat.lt_of_le_of_lt (Nat.sub_le _ _) t.isLt)).2.2.1 j + numShare m c t.val t.isLt
    ∧ (outsAt0 m c t.val t.isLt).2.2.2 j = (outsAt0 m c (t.val - 1) (Nat.lt_of_le_of_lt (Nat.sub_le _ _) t.isLt)).2.2.2 j + denShare m c t.val t.isLt := by
  by_cases h1 : t.val % 25 = 24
  · rw [outsAt0_C m c t h0 h1]
    exact ⟨num_last_at j c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h0 ((hcond0_0 t).mp h')) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2,
      den_last_at j c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h0 ((hcond0_0 t).mp h')) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    exact ⟨num_middle_at j c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h0 ((hcond0_0 t).mp h')) (fun h' => h1 ((hcond0_1 t).mp h')) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2,
      den_middle_at j c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h0 ((hcond0_0 t).mp h')) (fun h' => h1 ((hcond0_1 t).mp h')) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last tile stores the quotient of the two totals as it leaves them. -/
theorem step_pooled (c : Dev nD) (t : Fin cfg0.N) (h0 : ¬ t.val % 25 = 0) (h1 : t.val % 25 = 24) (j : S1x1.Idx) :
    (outsAt0 m c t.val t.isLt).2.1 j
      = Ideal.div ((outsAt0 m c (t.val - 1) (Nat.lt_of_le_of_lt (Nat.sub_le _ _) t.isLt)).2.2.1 j + numShare m c t.val t.isLt) ((outsAt0 m c (t.val - 1) (Nat.lt_of_le_of_lt (Nat.sub_le _ _) t.isLt)).2.2.2 j + denShare m c t.val t.isLt) := by
  rw [outsAt0_C m c t h0 h1]
  exact pooled_last_at j c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h' => h0 ((hcond0_0 t).mp h')) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After tile n the two running totals are the running sums of the shares. -/
theorem totals_after (c : Dev nD) : ∀ (n : Nat) (h : n < cfg0.N),
    (∀ j, (outsAt0 m c n h).2.2.1 j = runningSum (numShare m c) n h)
    ∧ (∀ j, (outsAt0 m c n h).2.2.2 j = runningSum (denShare m c) n h)
  | 0, h =>
    ⟨fun j => (step_first m c ⟨0, h⟩ rfl (by show ¬ 0 % 25 = 24; omega) j).1,
     fun j => (step_first m c ⟨0, h⟩ rfl (by show ¬ 0 % 25 = 24; omega) j).2⟩
  | n + 1, h => by
    have hN : n + 1 < 25 := lt_of_lt_of_eq h N_0
    obtain ⟨ihn, ihd⟩ := totals_after c n (Nat.lt_of_succ_lt h)
    have s := step_next m c ⟨n + 1, h⟩ (by show ¬ (n + 1) % 25 = 0; omega)
    refine ⟨fun j => (s j).1.trans ?_, fun j => (s j).2.trans ?_⟩
    · show (outsAt0 m c n _).2.2.1 j + numShare m c (n + 1) h = runningSum (numShare m c) n _ + numShare m c (n + 1) h
      rw [ihn j]
    · show (outsAt0 m c n _).2.2.2 j + denShare m c (n + 1) h = runningSum (denShare m c) n _ + denShare m c (n + 1) h
      rw [ihd j]

/-- The number the last tile stores is the quotient of the two running sums after it. -/
theorem pooled_at (c : Dev nD) : ∀ (t : Fin cfg0.N) (h0 : ¬ t.val % 25 = 0) (h1 : t.val % 25 = 24) (j : S1x1.Idx),
    (outsAt0 m c t.val t.isLt).2.1 j
      = Ideal.div (runningSum (numShare m c) t.val t.isLt) (runningSum (denShare m c) t.val t.isLt)
  | ⟨0, h⟩, h0, _, _ => absurd rfl h0
  | ⟨n + 1, h⟩, h0, h1, j => by
    obtain ⟨ihn, ihd⟩ := totals_after m c n (Nat.lt_of_succ_lt h)
    refine (step_pooled m c ⟨n + 1, h⟩ h0 h1 j).trans ?_
    show Ideal.div ((outsAt0 m c n _).2.2.1 j + numShare m c (n + 1) h) ((outsAt0 m c n _).2.2.2 j + denShare m c (n + 1) h)
      = Ideal.div (runningSum (numShare m c) (n + 1) h) (runningSum (denShare m c) (n + 1) h)
    rw [ihn j, ihd j, runningSum_succ, runningSum_succ]

/-- A tile's share of the numerator, over the whole arrays' rows. -/
theorem numShare_eq (c : Dev nD) (t : Fin 25) (h : t.val < cfg0.N) :
    numShare m c t.val h = ∑ l : Fin 2000, ∑ q : Fin 2,
      rowWeight (m ((c : Thread nD τ).loc main_arg0)) (m ((c : Thread nD τ).loc main_arg4)) (m ((c : Thread nD τ).loc main_arg5)) (tileRow t l)
        * rowLogit (m ((c : Thread nD τ).loc main_arg0)) (m ((c : Thread nD τ).loc main_arg2)) (m ((c : Thread nD τ).loc main_arg3)) (tileRow t l) q := by
  unfold numShare blockNum
  refine Finset.sum_congr rfl fun l _ => Finset.sum_congr rfl fun q _ => ?_
  exact congrArg₂ (· * ·) (tile_weight m c ⟨t.val, h⟩ l (tileRow t l) rfl) (tile_logit m c ⟨t.val, h⟩ l q (tileRow t l) q rfl rfl)

/-- A tile's share of the denominator, over the whole arrays' rows. -/
theorem denShare_eq (c : Dev nD) (t : Fin 25) (h : t.val < cfg0.N) :
    denShare m c t.val h = ∑ l : Fin 2000,
      rowWeight (m ((c : Thread nD τ).loc main_arg0)) (m ((c : Thread nD τ).loc main_arg4)) (m ((c : Thread nD τ).loc main_arg5)) (tileRow t l) := by
  unfold denShare blockDen
  exact Finset.sum_congr rfl fun l _ => tile_weight m c ⟨t.val, h⟩ l (tileRow t l) rfl

/-- The running sums after the last tile are the totals over all rows. -/
theorem num_total (c : Dev nD) (n : Nat) (h : n < cfg0.N) (hn : n = 24) :
    runningSum (numShare m c) n h
      = weightedTotal (m ((c : Thread nD τ).loc main_arg0)) (m ((c : Thread nD τ).loc main_arg2)) (m ((c : Thread nD τ).loc main_arg3))
          (m ((c : Thread nD τ).loc main_arg4)) (m ((c : Thread nD τ).loc main_arg5)) := by
  subst hn
  rw [runningSum_eq]
  unfold weightedTotal
  rw [← sum_tiles]
  exact Finset.sum_congr rfl fun t _ => numShare_eq m c t _

theorem den_total (c : Dev nD) (n : Nat) (h : n < cfg0.N) (hn : n = 24) :
    runningSum (denShare m c) n h
      = weightTotal (m ((c : Thread nD τ).loc main_arg0)) (m ((c : Thread nD τ).loc main_arg4)) (m ((c : Thread nD τ).loc main_arg5)) := by
  subst hn
  rw [runningSum_eq]
  unfold weightTotal
  rw [← sum_tiles]
  exact Finset.sum_congr rfl fun t _ => denShare_eq m c t _

end Cert.KernelIdeal.Pooled

end
-- ==== Proof.KernelArrays.lean ====
/-
  What the kernel's two result arrays hold after its run, over the extended reals.

  The logits array is written tile by tile, every row by exactly the tile that contains it, and each tile writes the
  logits of its own rows: so the array ends holding every row's logits. The pooled number is written once, by the last
  tile, as the quotient of the two running totals, which by then are the totals over all rows.
-/
import proofs.«166007_j25546465476636_1_alg».proof.Proof.KernelTotals

noncomputable section

open scoped BigOperators

namespace Cert.KernelIdeal.Pooled

open Cert.KernelIdeal Cert.KernelIdeal.Gen Cert.PooledLogits Idealize.ShloMosaic Idealize.ShloMosaic.TcCoe Idealize.SL.Sem
open Idealize.ShloMosaic.ValueIdx
open Idealize.ShloMosaic.Pipeline (Dat)
open Cert.KernelIdeal.CaseValues Cert.KernelIdeal.PayloadValues Cert.KernelIdeal.Steps Cert.KernelIdeal.Blocks

variable (m : (ℓ : Loc nD τ sig) → Buf (Elt Ideal) ℓ) (ρ : Dev nD → PrngReg)

/-! ## The logits array -/

/-- Whatever the tile, the block of logits it leaves holds, at each entry, the logit of that row and class of the
    blocks it sees. -/
theorem logits_block (c : Dev nD) (t : Fin cfg0.N) (y : S1x2000x2.Idx) :
    (outsAt0 m c t.val t.isLt).1 y = blockLogit (iblk m c 0 t) (iblk m c 1 t) (iblk m c 2 t) (y 1) (y 2) := by
  have hN : t.val < 25 := lt_of_lt_of_eq t.isLt N_0
  by_cases h0 : t.val % 25 = 0
  · have h1 : ¬ t.val % 25 = 24 := by omega
    rw [congrArg Prod.fst (outsAt0_A m c t h0 h1), logits_first]
    exact logits_entry _ _ _ y
  · by_cases h1 : t.val % 25 = 24
    · rw [congrArg Prod.fst (outsAt0_C m c t h0 h1), logits_last]
      exact logits_entry _ _ _ y
    · rw [congrArg Prod.fst (outsAt0_B m c t h0 h1), logits_middle]
      exact logits_entry _ _ _ y

/-- What tile t writes back is its block of the array of all logits. -/
theorem flushed5_eq (c : Dev nD) (t : Fin cfg0.N) :
    (dats m 0 c).flushed 5 t = ((cfg0.win 5).blk t).view.read (Elt Ideal)
      (logitsArr (m ((c : Thread nD τ).loc main_arg0)) (m ((c : Thread nD τ).loc main_arg2)) (m ((c : Thread nD τ).loc main_arg3))) := by
  rw [Value.flushed5]
  obtain ⟨-, -, -, -, -, -, -, -, -, -, -, e0, e1, e2, -⟩ := idx_facts t
  funext j
  show (outsAt0 m c t.val t.isLt).1 ((cfg0.win 5).xinj (grid0.coords t) j)
    = rowLogit (m ((c : Thread nD τ).loc main_arg0)) (m ((c : Thread nD τ).loc main_arg2)) (m ((c : Thread nD τ).loc main_arg3))
        ((((cfg0.win 5).blk t).view.emb j) 1) ((((cfg0.win 5).blk t).view.emb j) 2)
  refine (logits_block m c t _).trans ?_
  refine tile_logit m c t _ _ _ _ ?_ ?_
  · show win0_5.index t (1 : Fin 3) * 2000 + 1 * (j 1).val = 2000 * t.val + (j 1).val; omega
  · show win0_5.index t (2 : Fin 3) * 2 + 1 * (j 2).val = (j 2).val; omega

/-- An index of the logits array is in tile t's block iff each coordinate is in the block's range. -/
theorem mem_blk5 (t : Fin cfg0.N) (i : S1x50000x2.Idx) :
    i ∈ ((cfg0.win 5).blk t).view.set ↔ ∀ a : Fin 3, win0_5.index t a * S1x2000x2.size a ≤ (i a).val ∧ (i a).val < win0_5.index t a * S1x2000x2.size a + S1x2000x2.size a := by
  show i ∈ ((View.whole main_v2_0).slice (win0_5.rect t)).set ↔ _
  rw [View.set_slice_whole, Rect.mem_set_unit]
  exact Iff.rfl

/-- The logits array after the run: row r was written by tile r / 2000. -/
theorem final5 (c : Dev nD) : (dats m 0 c).arrAt 5 cfg0.N
    = logitsArr (m ((c : Thread nD τ).loc main_arg0)) (m ((c : Thread nD τ).loc main_arg2)) (m ((c : Thread nD τ).loc main_arg3)) :=
  (dats m 0 c).arrAt_eq_of_cover 5 _ (fun t _ => flushed5_eq m c t) fun i => by
    have hi0 : (i 0).val < 1 := (i 0).isLt
    have hi1 : (i 1).val < 50000 := (i 1).isLt
    have hi2 : (i 2).val < 2 := (i 2).isLt
    obtain ⟨t, ht⟩ : ∃ t : Fin cfg0.N, t.val = (i 1).val / 2000 :=
      ⟨⟨(i 1).val / 2000, by rw [show cfg0.N = 25 from N_0]; omega⟩, rfl⟩
    obtain ⟨-, -, -, -, -, -, -, -, -, -, -, e0, e1, e2, -⟩ := idx_facts t
    refine ⟨t, flush0_5 t, ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 2000 ≤ (i 1).val ∧ (i 1).val < win0_5.index t (1 : Fin 3) * 2000 + 2000; omega
    | ⟨2, _⟩ => show win0_5.index t (2 : Fin 3) * 2 ≤ (i 2).val ∧ (i 2).val < win0_5.index t (2 : Fin 3) * 2 + 2; omega

/-! ## The pooled number -/

set_option maxRecDepth 65536 in
/-- The one write-back of the pooled number, by the last tile, writes the quotient of the two totals. -/
theorem flushed6_eq (c : Dev nD) (t : Fin cfg0.N) (hf : (cfg0.win 6).flush t = true) :
    (dats m 0 c).flushed 6 t = ((cfg0.win 6).blk t).view.read (Elt Ideal)
      (pooledArr (m ((c : Thread nD τ).loc main_arg0)) (m ((c : Thread nD τ).loc main_arg2)) (m ((c : Thread nD τ).loc main_arg3))
        (m ((c : Thread nD τ).loc main_arg4)) (m ((c : Thread nD τ).loc main_arg5))) := by
  have hN : t.val < 25 := lt_of_lt_of_eq t.isLt N_0
  have h1 : t.val % 25 = 24 := (flush0_6 t).mp hf
  have h24 : t.val = 24 := by omega
  have h0 : ¬ t.val % 25 = 0 := by omega
  rw [Value.flushed6]
  funext j
  show (outsAt0 m c t.val t.isLt).2.1 ((cfg0.win 6).xinj (grid0.coords t) j)
    = pooledArr (m ((c : Thread nD τ).loc main_arg0)) (m ((c : Thread nD τ).loc main_arg2)) (m ((c : Thread nD τ).loc main_arg3))
        (m ((c : Thread nD τ).loc main_arg4)) (m ((c : Thread nD τ).loc main_arg5)) (((cfg0.win 6).blk t).view.emb j)
  unfold pooledArr
  rw [pooled_at m c t h0 h1, num_total m c t.val t.isLt h24, den_total m c t.val t.isLt h24]

/-- An index of the pooled array is in tile t's block iff each coordinate is in the block's range. -/
theorem mem_blk6 (t : Fin cfg0.N) (i : S1x1.Idx) :
    i ∈ ((cfg0.win 6).blk t).view.set ↔ ∀ a : Fin 2, win0_6.index t a * S1x1.size a ≤ (i a).val ∧ (i a).val < win0_6.index t a * S1x1.size a + S1x1.size a := by
  show i ∈ ((View.whole main_v2_1).slice (win0_6.rect t)).set ↔ _
  rw [View.set_slice_whole, Rect.mem_set_unit]
  exact Iff.rfl

/-- The pooled array after the run. -/
theorem final6 (c : Dev nD) : (dats m 0 c).arrAt 6 cfg0.N
    = pooledArr (m ((c : Thread nD τ).loc main_arg0)) (m ((c : Thread nD τ).loc main_arg2)) (m ((c : Thread nD τ).loc main_arg3))
        (m ((c : Thread nD τ).loc main_arg4)) (m ((c : Thread nD τ).loc main_arg5)) :=
  (dats m 0 c).arrAt_eq_of_cover 6 _ (flushed6_eq m c) fun i => by
    have hi0 : (i 0).val < 1 := (i 0).isLt
    have hi1 : (i 1).val < 1 := (i 1).isLt
    obtain ⟨t, ht⟩ : ∃ t : Fin cfg0.N, t.val = 24 := ⟨⟨24, by rw [show cfg0.N = 25 from N_0]; omega⟩, rfl⟩
    obtain ⟨-, -, -, -, -, -, -, -, -, -, -, -, -, -, e0, e1⟩ := idx_facts t
    refine ⟨t, (flush0_6 t).mpr (by rw [ht]), ?_⟩
    rw [mem_blk6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 1 ≤ (i 1).val ∧ (i 1).val < win0_6.index t (1 : Fin 2) * 1 + 1; omega

/-! ## The run, read -/

/-- Every weakly fair execution of the kernel program ends with the pooled array and the logits array at the
    specification's functions of the arguments, the arguments unchanged. -/
theorem run : θ_run defs (onTc (τ := τ) (main (F := Ideal))) ⟨m, fun _ => 0, ρ⟩ fun r => ∀ c : Dev nD,
      r.2.mem ((c : Thread nD τ).loc main_v2_1)
        = pooledArr (m ((c : Thread nD τ).loc main_arg0)) (m ((c : Thread nD τ).loc main_arg2)) (m ((c : Thread nD τ).loc main_arg3))
            (m ((c : Thread nD τ).loc main_arg4)) (m ((c : Thread nD τ).loc main_arg5))
      ∧ r.2.mem ((c : Thread nD τ).loc main_v2_0)
        = logitsArr (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).2.1.trans (final6 m c), (h c).1.trans (final5 m c), (h c).2.2⟩)
    (Value.run_blocks m ρ)

end Cert.KernelIdeal.Pooled

end
-- ==== Proof.Reference.lean ====
/-
  The reference computes the same two functions.

  It flattens the features to a 50000 by 1536 matrix, multiplies by the transposed class weights and by the transposed
  attention row, adds the biases broadcast over the rows, multiplies weight by logit entry by entry, sums both arrays
  over everything starting from zero, divides, and returns the quotient as a [1, 1] array beside the logits as a
  [1, 50000, 2] array. Read at an index, each stage is the stage before at the index the layout operation names.
-/
import proofs.«166007_j25546465476636_1_alg».proof.Proof.Gen.ReferenceIdeal.Read
import proofs.«166007_j25546465476636_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Pooled

open Cert.ReferenceIdeal Cert.ReferenceIdeal.Gen Cert.ReferenceIdeal.Read Cert.PooledLogits
open Idealize.ShloMosaic Idealize.ShloMosaic.ValueIdx

variable (x0 : Feat) (x2 : ClassW) (x3 : ClassB) (x4 : AttnW) (x5 : AttnB)

/-- The flattened features at (r, k) are the features at (0, r, k). -/
theorem flat_idx (r : Fin 50000) (k : Fin 1536) (i : S50000x1536.Idx) (h0 : (i 0).val = r.val) (h1 : (i 1).val = k.val) :
    idx_main_v0 i = ix3 (0 : Fin 1) r k := by
  have hr := r.isLt
  have hk := k.isLt
  funext a
  apply Fin.ext
  match a with
  | ⟨0, _⟩ => rfl
  | ⟨1, _⟩ => show ((i 0).val * 1536 + (i 1).val) / 1536 % 50000 = r.val; omega
  | ⟨2, _⟩ => show ((i 0).val * 1536 + (i 1).val) % 1536 = k.val; omega

/-- The logit stage at row r and class q. -/
theorem logit_at (r : Fin 50000) (q : Fin 2) : val_main_v5 (F := Ideal) x0 x2 x3 (ix2 r q) = rowLogit x0 x2 x3 r q := by
  rw [val_main_v5_apply, val_main_v2_apply, val_main_v4_apply, val_main_v3_apply]
  unfold rowLogit
  refine congrArg₂ (· + ·) (Finset.sum_congr rfl fun k _ => ?_) (congrArg x3 ?_)
  · rw [val_main_v0_apply, val_main_v1_apply]
    refine congrArg₂ (· * ·) (congrArg x0 (flat_idx r k _ rfl rfl)) (congrArg x2 ?_)
    funext a
    match a with
    | ⟨0, _⟩ => rfl
    | ⟨1, _⟩ => rfl
  · funext a
    match a with
    | ⟨0, _⟩ => rfl

/-- The weight stage at row r. -/
theorem weight_at (r : Fin 50000) : val_main_v10 (F := Ideal) x0 x4 x5 (ix2 r (0 : Fin 1)) = rowWeight x0 x4 x5 r := by
  rw [val_main_v10_apply, val_main_v7_apply, val_main_v9_apply, val_main_v8_apply]
  unfold rowWeight
  refine congrArg₂ (· + ·) (Finset.sum_congr rfl fun k _ => ?_) (congrArg x5 ?_)
  · rw [val_main_v0_apply, val_main_v6_apply]
    refine congrArg₂ (· * ·) (congrArg x0 (flat_idx r k _ rfl rfl)) (congrArg x4 ?_)
    funext a
    match a with
    | ⟨0, _⟩ => rfl
    | ⟨1, _⟩ => rfl
  · funext a
    match a with
    | ⟨0, _⟩ => rfl

/-- The product stage at row r and class q. -/
theorem prod_at (r : Fin 50000) (q : Fin 2) :
    val_main_v12 (F := Ideal) x0 x2 x3 x4 x5 (ix2 r q) = rowWeight x0 x4 x5 r * rowLogit x0 x2 x3 r q := by
  rw [val_main_v12_apply, val_main_v11_apply]
  refine congrArg₂ (· * ·) ((congrArg (val_main_v10 (F := Ideal) x0 x4 x5) ?_).trans (weight_at x0 x4 x5 r)) (logit_at x0 x2 x3 r q)
  funext a
  match a with
  | ⟨0, _⟩ => rfl
  | ⟨1, _⟩ => rfl

/-- The numerator: zero plus the sum over all rows and both classes. -/
theorem num_at (i : S_.Idx) : val_main_v13 (F := Ideal) x0 x2 x3 x4 x5 i = weightedTotal x0 x2 x3 x4 x5 := by
  rw [val_main_v13_apply, val_main_cst_apply]
  show Ideal.ofBits .f32 0x00000000#32 + _ = _
  rw [Ideal.ofBits_zero_f32, zero_add, sum_idx2]
  unfold weightedTotal
  exact Finset.sum_congr rfl fun r _ => Finset.sum_congr rfl fun q _ => prod_at x0 x2 x3 x4 x5 r q

/-- The denominator: zero plus the sum over all rows. -/
theorem den_at (i : S_.Idx) : val_main_v14 (F := Ideal) x0 x4 x5 i = weightTotal x0 x4 x5 := by
  rw [val_main_v14_apply, val_main_cst_0_apply]
  show Ideal.ofBits .f32 0x00000000#32 + _ = _
  rw [Ideal.ofBits_zero_f32, zero_add, sum_idx2]
  unfold weightTotal
  exact Finset.sum_congr rfl fun r _ => (Fin.sum_univ_one _).trans (weight_at x0 x4 x5 r)

/-- The reference's first result is the pooled array. -/
theorem pooled_eq : val_main_v16 (F := Ideal) x0 x2 x3 x4 x5 = pooledArr x0 x2 x3 x4 x5 := by
  funext j
  unfold val_main_v16 shapeCast
  rw [val_main_v15_apply, num_at, den_at]
  rfl

/-- The reference's second result is the array of all logits. -/
theorem logits_eq : val_main_v17 (F := Ideal) x0 x2 x3 = logitsArr x0 x2 x3 := by
  funext i
  rw [val_main_v17_apply]
  unfold logitsArr
  refine (congrArg (val_main_v5 (F := Ideal) x0 x2 x3) ?_).trans (logit_at x0 x2 x3 (i 1) (i 2))
  funext a
  match a with
  | ⟨0, _⟩ => rfl
  | ⟨1, _⟩ => rfl

end Cert.ReferenceIdeal.Pooled

end
-- ==== Proof.lean ====
/-
  The certificate: a tiled attention-pooling head and its one-shot reference are equal over the extended reals.

  Both programs take 50000 feature rows of length 1536, a 2-class linear head and a 1-output attention head. Each row gets
  two logits (its product with the class weights plus the class bias) and one weight (its product with the attention row
  plus the attention bias); the results are all the logits and the one number
      (sum over rows and classes of weight times logit) / (sum over rows of weight).
  The kernel visits the rows in 25 tiles of 2000, writes each tile's logits, and carries the two sums as running totals from
  zero, dividing once after the last tile; the reference sums everything at once. The running totals after the last tile are
  the full sums because extended-real addition is commutative and associative, so the claim needs no finiteness of the
  inputs; both programs then divide the same numerator by the same denominator with the same operation.
  The two frames of the kernel are the generated ones; the reference's frame is its generated run with the results dropped;
  nothing was rewritten by the ideal pass, so the preservation claim is trivial.
-/
import proofs.«166007_j25546465476636_1_alg».proof.Defs
import proofs.«166007_j25546465476636_1_alg».proof.Proof.Gen.Kernel
import proofs.«166007_j25546465476636_1_alg».proof.Proof.Gen.Kernel.Skeleton
import proofs.«166007_j25546465476636_1_alg».proof.Proof.Gen.Kernel.Launch
import proofs.«166007_j25546465476636_1_alg».proof.Proof.Gen.Kernel.Points
import proofs.«166007_j25546465476636_1_alg».proof.Proof.Gen.Kernel.Frame
import proofs.«166007_j25546465476636_1_alg».proof.Proof.Gen.KernelIdeal
import proofs.«166007_j25546465476636_1_alg».proof.Proof.Gen.KernelIdeal.Skeleton
import proofs.«166007_j25546465476636_1_alg».proof.Proof.Gen.KernelIdeal.Launch
import proofs.«166007_j25546465476636_1_alg».proof.Proof.Gen.KernelIdeal.Points
import proofs.«166007_j25546465476636_1_alg».proof.Proof.Gen.KernelIdeal.Frame
import proofs.«166007_j25546465476636_1_alg».proof.Proof.Gen.ReferenceIdeal
import proofs.«166007_j25546465476636_1_alg».proof.Proof.Gen.KernelIdeal.Value
import proofs.«166007_j25546465476636_1_alg».proof.Proof.Gen.ReferenceIdeal.Run
import proofs.«166007_j25546465476636_1_alg».proof.Proof.Gen.ReferenceIdeal.Read
import proofs.«166007_j25546465476636_1_alg».proof.Proof.Gen.Pre_finite_inputs
import proofs.«166007_j25546465476636_1_alg».proof.Proof.KernelArrays
import proofs.«166007_j25546465476636_1_alg».proof.Proof.Reference
import Idealize.ShloMosaic.Adequacy
import Idealize.ShloMosaic.Init

noncomputable section

namespace Cert.Proof

open Idealize.ShloMosaic Idealize.ShloMosaic.TcCoe Idealize.SL.Sem Cert.PooledLogits

/-- The kernel as printed runs and leaves its arguments alone. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference runs and leaves its arguments alone: its run, the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- Both programs end with the pooled number and the logits array at the same functions of arguments that agree. -/
theorem algebraic : Cert.algebraic_KernelIdeal_ReferenceIdeal := by
  intro m ρ m' ρ' _ hagree
  refine ⟨fun c => pooledArr (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    fun c => logitsArr (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Pooled.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v16_eq, Cert.ReferenceIdeal.Pooled.pooled_eq, a0, a2, a3, a4, a5]
  · rw [Cert.ReferenceIdeal.Read.val_main_v17_eq, Cert.ReferenceIdeal.Pooled.logits_eq, a0, a2, a3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
